-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S4000x128 : Shape := ⟨2, ![4000, 128]⟩
abbrev S4000x64 : Shape := ⟨2, ![4000, 64]⟩
abbrev S1700000x64 : Shape := ⟨2, ![1700000, 64]⟩
abbrev S1x64 : Shape := ⟨2, ![1, 64]⟩
abbrev S100000x32 : Shape := ⟨2, ![100000, 32]⟩
abbrev S4000x32 : Shape := ⟨2, ![4000, 32]⟩
abbrev S1700000x32 : Shape := ⟨2, ![1700000, 32]⟩
abbrev S1x32 : Shape := ⟨2, ![1, 32]⟩

abbrev nBuf : Space → Nat
  | .hbm => 92
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x1, .f32⟩
  | .hbm, ⟨83, _⟩ => ⟨S1700000x32, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64x32, .f32⟩
  | .local _ .vmem, ⟨8, _⟩ => ⟨S4000x32, .f32⟩
  | .local _ .vmem, ⟨9, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S4000x64_S4000x64 : S4000x64.ShapeCasts S4000x64
  inb_S64x32_S64x32_0_0 : ∀ a, (![0, 0] : Fin 2 → Nat) a + S64x32.size a ≤ S64x32.size a
  h_S64x32 : 0 < S64x32.numel
  inb_S4000x32_S4000x32_0_0 : ∀ a, (![0, 0] : Fin 2 → Nat) a + S4000x32.size a ≤ S4000x32.size a
  h_S4000x32 : 0 < S4000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x32_S4000x32_1_0_0_1_n_n_wf : DotDims.WF S4000x64 S64x32 S4000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x64, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x32, .f32⟩
  | .hbm, ⟨101, _⟩ => ⟨S1700000x1, .f32⟩
  | .hbm, ⟨102, _⟩ => ⟨S1700000x32, .f32⟩
  | .hbm, ⟨103, _⟩ => ⟨S1700000x32, .f32⟩
  | .hbm, ⟨104, _⟩ => ⟨S_, .f32⟩
  | .hbm, ⟨105, _⟩ => ⟨S100000x32, .f32⟩
  | .hbm, ⟨106, _⟩ => ⟨S1700000x1, .i32⟩
  | .hbm, ⟨107, _⟩ => ⟨S100000x32, .f32⟩
  | .hbm, ⟨108, _⟩ => ⟨S1x32, .f32⟩
  | .hbm, ⟨109, _⟩ => ⟨S100000x32, .f32⟩
  | .hbm, ⟨110, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.ResultRun.lean ====
/-
  The idealized kernel's run with its RESULT kept.

  @main is eight segments: three stretches of host operations, the first matrix-product region, two more stretches,
  the second region, and a last stretch. Between two segments the core holds every unscoped buffer whole, at contents
  that are a fold from the launch memory: a stretch applies its operations in order, a region replaces each of its
  arrays by what its pipeline leaves there and touches nothing else. Call the last of these contents `W8`.
  Every weakly fair execution terminates, nothing faulting, in a memory that agrees with `W8` on EVERY unscoped
  buffer. The frame claim reads that fact at the six argument buffers only; here it is read at the result buffer
  too: the result ends at `W8`'s value there. What that value is, as a function of the arguments, is the next
  modules' business.

  The run is the library's rule for a list of segments, applied to the segments, proof data and thread states the
  frame certificate already names; its side conditions are the launch (the ghost tokens dealt, the first thread
  state made from the launch memory), the chaining of each segment's postcondition to the next one's
  precondition (here they are the same proposition), and the final read of the held buffers against the state.
-/
import proofs.«128642_j34454227649229_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thread state the first segment is entered from: every unscoped buffer at its launch contents, the generator
    register at some state, nothing owed. -/
abbrev atLaunch (c : Dev nD) : sProp 𝕄 :=
  iprop(StableHlo.held (c : Thread nD τ) (Pipeline.ucRefs τ sig) (W0 m ρ c) ∗ R c)

/-- The pipelines' ghost tokens are dealt at launch; nothing else is asked of the launch. -/
theorem tokens_dealt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From the launch memory every core makes its first thread state: its unscoped buffers ARE the launch contents
    held whole, its generator register is at its launch state, and it owes nothing. -/
theorem first_state :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (iprop(emp) : sProp 𝕄))) ∗ levAts L lv)
      ⊢ (|={Set.univ}=> bigSep Finset.univ (atLaunch m ρ) : sProp 𝕄) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hh, -, HO, -, Hp, -⟩, -⟩
  imodintro
  isplitl [Hh]; · iexact Hh
  isplitl [Hp]; · iexists _; iexact Hp
  iexists ∅; iexact HO

/-- Each segment is entered from exactly what the one before it left; the last leaves the buffers at `W8` beside
    the generator register, and the core owing nothing. -/
theorem chained :
    Pipeline.Seg.Chains (atLaunch m ρ) (segs m ρ) fun c => iprop(Tₙ m ρ c ∗ ∃ W, owes (c.tc : Thread nD τ) (0 : CellTallies nD τ sig Unit) W) :=
  ⟨fun _ => .rfl, fun _ => .rfl, fun _ => .rfl, fun _ => .rfl, fun _ => .rfl, fun _ => .rfl, fun _ => .rfl, fun _ => .rfl, fun c => by
    dsimp only [Pipeline.Seg.post, hseg, Pipeline.HostSeg.ofOps]
    iintro ⟨Hh, Hp, HO⟩
    isplitl [Hh Hp]
    · isplitl [Hh]; · iexact Hh
      iexact Hp
    iexact HO⟩

/-- A memory agrees with the last boundary's contents on every unscoped buffer of core `c`. -/
abbrev endsAtLast (c : Dev nD) (s : MemSt nD τ sig (Elt F)) : Prop :=
  ∀ b ∈ Pipeline.ucRefs τ sig, s.mem (((c : Thread nD τ)).1, b) = W8 m ρ c b

/-- The buffers the last thread state holds are read off the final state: its memory agrees with `W8` on every
    unscoped buffer. -/
theorem read_back (c : Dev nD) (s' : Phys nD τ sig (Elt F)) :
    iprop(Tₙ m ρ c ∗ SI s') ⊢ (|={Set.univ}=> iprop(⌜endsAtLast m ρ c s'.mem⌝ ∗ SI s') : sProp 𝕄) := by
  iintro ⟨⟨Hh, -⟩, HSI⟩
  unfold StableHlo.held
  imodintro
  iapply (pointsTo_read_all (Pipeline.ucRefs τ sig) (fun b => (((c : Thread nD τ)).1, b)) (W8 m ρ c) s')
  isplitl [Hh] <;> iassumption

-- the rule's implicit arguments are found by unifying its conclusion with this one, which takes unfolding plain
-- definitions in a metavariable's type
set_option backward.isDefEq.respectTransparency.types false in
/-- Every weakly fair execution of the idealized kernel's @main terminates, nothing faulting; the result buffer ends
    at the last boundary's contents and every argument as launched. -/
theorem run : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := tokens_dealt)
    (T₀ := atLaunch m ρ) (Tₙ := Tₙ m ρ)
    (hch := chained m ρ)
    (hinit := first_state m ρ)
    (QY := endsAtLast m ρ)
    (hfin := read_back m ρ)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.PointProduct.lean ====
/-
  What one grid point of either matrix-product kernel stores, entry by entry.

  Each body loads a block of 4000 rows of the left operand and the whole right operand, changes their float format
  (the identity on the extended reals), and multiplies them on the matrix unit into a zero accumulator. So the entry
  in row `r`, column `q` of the stored block is the sum over the inner axis `k` of
  `left (r, k) * right (k, q)`: 128 terms in the first layer (4000×128 by 128×64), 64 in the second (4000×64 by
  64×32, whose left block first passes through a reshape to its own shape, again the identity). Nothing here needs
  an entry to be finite: the only facts used are the zero accumulator's `0 + s = s` and a re-indexing of the sum
  from the contraction's own index type to `Fin 128` (resp. `Fin 64`).
-/
import proofs.«128642_j34454227649229_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Product

open Cert.KernelIdeal Cert.KernelIdeal.Gen Idealize.ShloMosaic Idealize.ShloMosaic.ValueIdx

/-! ## First layer: a 4000×128 block times the 128×64 weights -/

/-- The left operand's index under the contraction: the output's row, the inner position. -/
theorem lhs1 (j : S4000x64.Idx) (k : Fin 128) :
    dot_S4000x128_S128x64_S4000x64_1_0_0_1_n_n.lhsIdx j ((contrEquiv1 dot_S4000x128_S128x64_S4000x64_1_0_0_1_n_n 128 rfl rfl).symm k)
      = (ix2 (j 0) k : S4000x128.Idx) := by
  have hk := contrEquiv1_symm_val dot_S4000x128_S128x64_S4000x64_1_0_0_1_n_n 128 rfl rfl k
  funext a; apply Fin.ext
  match a with
  | ⟨0, _⟩ =>
    show (dot_S4000x128_S128x64_S4000x64_1_0_0_1_n_n.lhsIdx j _ 0).val = (j 0).val
    unfold DotDims.lhsIdx
    rw [dif_neg (show ¬(0 : Fin S4000x128.rank) ∈ dot_S4000x128_S128x64_S4000x64_1_0_0_1_n_n.lhsBatch by decide),
      dif_pos (show (0 : Fin S4000x128.rank) ∈ dot_S4000x128_S128x64_S4000x64_1_0_0_1_n_n.lhsNonContracting by decide)]
    rfl
  | ⟨1, _⟩ =>
    exact (dot_S4000x128_S128x64_S4000x64_1_0_0_1_n_n.lhsIdx_val_of_single rfl j _).trans hk

/-- The right operand's index under the contraction: the inner position, the output's column. -/
theorem rhs1 (j : S4000x64.Idx) (k : Fin 128) :
    dot_S4000x128_S128x64_S4000x64_1_0_0_1_n_n.rhsIdx j ((contrEquiv1 dot_S4000x128_S128x64_S4000x64_1_0_0_1_n_n 128 rfl rfl).symm k)
      = (ix2 k (j 1) : S128x64.Idx) := by
  have hk := contrEquiv1_symm_val dot_S4000x128_S128x64_S4000x64_1_0_0_1_n_n 128 rfl rfl k
  funext a; apply Fin.ext
  match a with
  | ⟨0, _⟩ =>
    exact (dot_S4000x128_S128x64_S4000x64_1_0_0_1_n_n.rhsIdx_val_of_single rfl j _).trans hk
  | ⟨1, _⟩ =>
    show (dot_S4000x128_S128x64_S4000x64_1_0_0_1_n_n.rhsIdx j _ 1).val = (j 1).val
    unfold DotDims.rhsIdx
    rw [dif_neg (show ¬(1 : Fin S128x64.rank) ∈ dot_S4000x128_S128x64_S4000x64_1_0_0_1_n_n.rhsBatch by decide),
      dif_pos (show (1 : Fin S128x64.rank) ∈ dot_S4000x128_S128x64_S4000x64_1_0_0_1_n_n.rhsNonContracting by decide)]
    rfl

/-- The first layer's stored block, entry by entry. -/
theorem stored1_apply (x : Vec Ideal S4000x128 .f32) (w : Vec Ideal S128x64 .f32) (j : S4000x64.Idx) :
    k0_pay1 (F := Ideal) x w j = ∑ k : Fin 128, x (ix2 (j 0) k) * w (ix2 k (j 1)) := by
  unfold k0_pay1
  refine (Ideal.matmul_constant_zero_apply (φ₁ := .bf16) (φ₂ := .bf16) dot_S4000x128_S128x64_S4000x64_1_0_0_1_n_n none
    (x : FVec Ideal S4000x128 .bf16) (w : FVec Ideal S128x64 .bf16) j).trans ?_
  rw [← Equiv.sum_comp (contrEquiv1 dot_S4000x128_S128x64_S4000x64_1_0_0_1_n_n 128 rfl rfl).symm]
  refine Finset.sum_congr rfl fun k _ => ?_
  rw [lhs1 j k, rhs1 j k]

/-! ## Second layer: a 4000×64 block times the 64×32 weights -/

theorem lhs2 (j : S4000x32.Idx) (k : Fin 64) :
    dot_S4000x64_S64x32_S4000x32_1_0_0_1_n_n.lhsIdx j ((contrEquiv1 dot_S4000x64_S64x32_S4000x32_1_0_0_1_n_n 64 rfl rfl).symm k)
      = (ix2 (j 0) k : S4000x64.Idx) := by
  have hk := contrEquiv1_symm_val dot_S4000x64_S64x32_S4000x32_1_0_0_1_n_n 64 rfl rfl k
  funext a; apply Fin.ext
  match a with
  | ⟨0, _⟩ =>
    show (dot_S4000x64_S64x32_S4000x32_1_0_0_1_n_n.lhsIdx j _ 0).val = (j 0).val
    unfold DotDims.lhsIdx
    rw [dif_neg (show ¬(0 : Fin S4000x64.rank) ∈ dot_S4000x64_S64x32_S4000x32_1_0_0_1_n_n.lhsBatch by decide),
      dif_pos (show (0 : Fin S4000x64.rank) ∈ dot_S4000x64_S64x32_S4000x32_1_0_0_1_n_n.lhsNonContracting by decide)]
    rfl
  | ⟨1, _⟩ =>
    exact (dot_S4000x64_S64x32_S4000x32_1_0_0_1_n_n.lhsIdx_val_of_single rfl j _).trans hk

theorem rhs2 (j : S4000x32.Idx) (k : Fin 64) :
    dot_S4000x64_S64x32_S4000x32_1_0_0_1_n_n.rhsIdx j ((contrEquiv1 dot_S4000x64_S64x32_S4000x32_1_0_0_1_n_n 64 rfl rfl).symm k)
      = (ix2 k (j 1) : S64x32.Idx) := by
  have hk := contrEquiv1_symm_val dot_S4000x64_S64x32_S4000x32_1_0_0_1_n_n 64 rfl rfl k
  funext a; apply Fin.ext
  match a with
  | ⟨0, _⟩ =>
    exact (dot_S4000x64_S64x32_S4000x32_1_0_0_1_n_n.rhsIdx_val_of_single rfl j _).trans hk
  | ⟨1, _⟩ =>
    show (dot_S4000x64_S64x32_S4000x32_1_0_0_1_n_n.rhsIdx j _ 1).val = (j 1).val
    unfold DotDims.rhsIdx
    rw [dif_neg (show ¬(1 : Fin S64x32.rank) ∈ dot_S4000x64_S64x32_S4000x32_1_0_0_1_n_n.rhsBatch by decide),
      dif_pos (show (1 : Fin S64x32.rank) ∈ dot_S4000x64_S64x32_S4000x32_1_0_0_1_n_n.rhsNonContracting by decide)]
    rfl

/-- The second layer's stored block, entry by entry (the reshape of the left block to its own shape reads each
    entry where it was). -/
theorem stored2_apply (x : Vec Ideal S4000x64 .f32) (w : Vec Ideal S64x32 .f32) (j : S4000x32.Idx) :
    k1_pay1 (F := Ideal) x w j = ∑ k : Fin 64, x (ix2 (j 0) k) * w (ix2 k (j 1)) := by
  unfold k1_pay1
  refine (Ideal.matmul_constant_zero_apply (φ₁ := .bf16) (φ₂ := .bf16) dot_S4000x64_S64x32_S4000x32_1_0_0_1_n_n none
    (shapeCast S4000x64 x shapeCasts_S4000x64_S4000x64 : FVec Ideal S4000x64 .bf16) (w : FVec Ideal S64x32 .bf16) j).trans ?_
  rw [← Equiv.sum_comp (contrEquiv1 dot_S4000x64_S64x32_S4000x32_1_0_0_1_n_n 64 rfl rfl).symm]
  refine Finset.sum_congr rfl fun k _ => ?_
  rw [lhs2 j k, rhs2 j k, shapeCast_self]

end Cert.KernelIdeal.Product

end
-- ==== Proof.WholeProduct.lean ====
/-
  From one grid point's block to the whole array: each region leaves a full matrix product in its output.

  A region's grid has 25 points. Point `t` reads rows `4000 t … 4000 t + 3999` of the left operand (all of its
  columns) and the whole right operand, and writes the same rows of the output. So the entry (r, q) that point
  `t = r / 4000` writes is the sum over the inner axis of `left (r, k) * right (k, q)` — an expression in which the
  point no longer appears: every written block is the restriction of ONE function of the two operand arrays, the
  matrix product `rowsTimes`. The 25 blocks tile the 100000 rows, so after the region the output array IS that
  product of the operand arrays as the region found them.

  Stated at an arbitrary contents `V` of the buffers at the region's entry, because the two regions are entered
  from different contents (the second one's left operand is computed between them).
-/
import proofs.«128642_j34454227649229_1_alg».proof.Proof.Gen.KernelIdeal.Frame
import proofs.«128642_j34454227649229_1_alg».proof.Proof.PointProduct

set_option maxRecDepth 16384

noncomputable section

namespace Cert.KernelIdeal.Product

open Cert.KernelIdeal Cert.KernelIdeal.Gen Idealize.ShloMosaic Idealize.ShloMosaic.TcCoe Idealize.ShloMosaic.ValueIdx
open Idealize.SL.Sem
open Idealize.ShloMosaic.Pipeline (Dat)

/-- The two-coordinate origin, as the constant-zero function. -/
theorem origin2 : (![0, 0] : Fin 2 → Nat) = fun _ => 0 := funext fun a => by fin_cases a <;> rfl

variable (V : (c : Dev nD) → (b : Ref sig .tc) → Buf (Elt Ideal) ((c : Thread nD τ).loc b))

/-! ## First layer: 100000×128 by 128×64 -/

/-- The matrix product of a 100000×128 array with a 128×64 one, entry by entry. -/
def rowsTimes1 (x : S100000x128.Idx → Elt Ideal .f32) (w : S128x64.Idx → Elt Ideal .f32) : S100000x64.Idx → Elt Ideal .f32 :=
  fun i => ∑ k : Fin 128, x (ix2 (i 0) k) * w (ix2 k (i 1))

/-- Where each window's block sits at point `t`: the left operand's and the output's at block-row `t`, the right
    operand's always at the origin. -/
theorem blockAt1 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the operand arrays as the region finds them. -/
theorem written1 (c : Dev nD) (t : Fin cfg0.N) :
    (dat0 V c).flushed 2 t
      = ((cfg0.win 2).blk t).view.read (Elt Ideal) (rowsTimes1 (V c main_arg0) (V c main_arg2)) := by
  show (cfg0.win 2).cut (grid0.coords t) ((dat0 V c).after 2 t) = _
  rw [after0_2]
  unfold out0_2
  rw [View.canon_unit_zero origin2]
  simp only [View.ld_unit_zero (S := S4000x128) origin2, View.ld_unit_zero (S := S128x64) origin2]
  obtain ⟨e0, e1, e2, e3, e4, e5⟩ := blockAt1 t
  funext j
  refine (stored1_apply (iblk0 V c 0 t) (iblk0 V c 1 t) j).trans ?_
  show _ = rowsTimes1 (V c main_arg0) (V c main_arg2) (((cfg0.win 2).blk t).view.emb j)
  unfold rowsTimes1
  refine Finset.sum_congr rfl fun k _ => ?_
  have hj0 : (j 0).val < 4000 := (j 0).isLt
  have hj1 : (j 1).val < 64 := (j 1).isLt
  have hk : k.val < 128 := k.isLt
  have hl : ((cfg0.win 0).blk t).view.emb (ix2 (j 0) k) = ix2 ((((cfg0.win 2).blk t).view.emb j) 0) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  have hr : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  refine congr (congrArg _ ?_) ?_
  · show V c main_arg0 (((cfg0.win 0).blk t).view.emb (ix2 (j 0) k)) = _
    rw [hl]; rfl
  · show V c main_arg2 (((cfg0.win 1).blk t).view.emb (ix2 k (j 1))) = _
    rw [hr]; rfl

/-- An index of the output array is in point `t`'s block iff each coordinate is in the block's range on its axis. -/
theorem inBlock1 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v32).slice (win0_2.rect t)).set ↔ _
  rw [View.set_slice_whole, Rect.mem_set_unit]
  exact Iff.rfl

/-- Every row of the output belongs to the block of point `row / 4000`. -/
theorem tiled1 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 25 := N_0
  let t : Fin cfg0.N := ⟨(i 0).val / 4000, by show (i 0).val / 4000 < grid0.N; omega⟩
  obtain ⟨-, -, -, -, e4, e5⟩ := blockAt1 t
  have ht : t.val = (i 0).val / 4000 := rfl
  refine ⟨t, flush0_2 t, ?_⟩
  rw [inBlock1]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- After the first region its output array is the product of its operand arrays as it found them. -/
theorem whole1 (c : Dev nD) :
    (dat0 V c).arrAt 2 cfg0.N = rowsTimes1 (V c main_arg0) (V c main_arg2) :=
  (dat0 V c).arrAt_eq_of_cover 2 _ (fun t _ => written1 V c t) tiled1

/-! ## Second layer: 100000×64 by 64×32 -/

/-- The matrix product of a 100000×64 array with a 64×32 one, entry by entry. -/
def rowsTimes2 (x : S100000x64.Idx → Elt Ideal .f32) (w : S64x32.Idx → Elt Ideal .f32) : S100000x32.Idx → Elt Ideal .f32 :=
  fun i => ∑ k : Fin 64, x (ix2 (i 0) k) * w (ix2 k (i 1))

theorem blockAt2 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem written2 (c : Dev nD) (t : Fin cfg1.N) :
    (dat1 V c).flushed 2 t
      = ((cfg1.win 2).blk t).view.read (Elt Ideal) (rowsTimes2 (V c main_v49) (V c main_arg4)) := by
  show (cfg1.win 2).cut (grid1.coords t) ((dat1 V c).after 2 t) = _
  rw [after1_2]
  unfold out1_2
  rw [View.canon_unit_zero origin2]
  simp only [View.ld_unit_zero (S := S4000x64) origin2, View.ld_unit_zero (S := S64x32) origin2]
  obtain ⟨e0, e1, e2, e3, e4, e5⟩ := blockAt2 t
  funext j
  refine (stored2_apply (iblk1 V c 0 t) (iblk1 V c 1 t) j).trans ?_
  show _ = rowsTimes2 (V c main_v49) (V c main_arg4) (((cfg1.win 2).blk t).view.emb j)
  unfold rowsTimes2
  refine Finset.sum_congr rfl fun k _ => ?_
  have hj0 : (j 0).val < 4000 := (j 0).isLt
  have hj1 : (j 1).val < 32 := (j 1).isLt
  have hk : k.val < 64 := k.isLt
  have hl : ((cfg1.win 0).blk t).view.emb (ix2 (j 0) k) = ix2 ((((cfg1.win 2).blk t).view.emb j) 0) k := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 64 + 1 * k.val = k.val; omega
  have hr : ((cfg1.win 1).blk t).view.emb (ix2 k (j 1)) = ix2 k ((((cfg1.win 2).blk t).view.emb j) 1) := by
    funext a; apply Fin.ext
    match a with
    | ⟨0, _⟩ => show win1_1.index t (0 : Fin 2) * 64 + 1 * k.val = k.val; omega
    | ⟨1, _⟩ => show win1_1.index t (1 : Fin 2) * 32 + 1 * (j 1).val = win1_2.index t (1 : Fin 2) * 32 + 1 * (j 1).val; omega
  refine congr (congrArg _ ?_) ?_
  · show V c main_v49 (((cfg1.win 0).blk t).view.emb (ix2 (j 0) k)) = _
    rw [hl]; rfl
  · show V c main_arg4 (((cfg1.win 1).blk t).view.emb (ix2 k (j 1))) = _
    rw [hr]; rfl

theorem inBlock2 (t : Fin cfg1.N) (i : S100000x32.Idx) :
    i ∈ ((cfg1.win 2).blk t).view.set ↔ ∀ a : Fin 2, win1_2.index t a * S4000x32.size a ≤ (i a).val ∧ (i a).val < win1_2.index t a * S4000x32.size a + S4000x32.size a := by
  show i ∈ ((View.whole main_v50).slice (win1_2.rect t)).set ↔ _
  rw [View.set_slice_whole, Rect.mem_set_unit]
  exact Iff.rfl

theorem tiled2 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : grid1.N = 25 := N_1
  let t : Fin cfg1.N := ⟨(i 0).val / 4000, by show (i 0).val / 4000 < grid1.N; omega⟩
  obtain ⟨-, -, -, -, e4, e5⟩ := blockAt2 t
  have ht : t.val = (i 0).val / 4000 := rfl
  refine ⟨t, flush1_2 t, ?_⟩
  rw [inBlock2]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 32 ≤ (i 1).val ∧ (i 1).val < win1_2.index t (1 : Fin 2) * 32 + 32; omega

/-- After the second region its output array is the product of its operand arrays as it found them. -/
theorem whole2 (c : Dev nD) :
    (dat1 V c).arrAt 2 cfg1.N = rowsTimes2 (V c main_v49) (V c main_arg4) :=
  (dat1 V c).arrAt_eq_of_cover 2 _ (fun t _ => written2 V c t) tiled2

end Cert.KernelIdeal.Product

end
-- ==== Proof.Layers.lean ====
/-
  The graph-convolution layers that both programs share, as functions of arrays.

  The edge list has two rows of 1600000 node numbers (sources, destinations). Both programs append one self-loop per
  node to each row (`endpoints`: the row followed by 0, 1, …, 99999), count each node's incoming edges by adding a one
  per edge into a zero vector at the destinations (its degree), take `degree^(-1/2)` where the degree is positive and
  0 elsewhere (`invSqrtDegree`; the maximum with 1e-12 under the root only guards the branch not taken), and weigh
  every edge by the product of that number at its two end-points (`edgeWeight`).

  A layer then takes a node-feature matrix `h` (one row per node), reads row `source(e)` for every edge `e`, scales it
  by the edge's weight, adds it into row `destination(e)` of a zero matrix, and adds the bias to every row
  (`aggregate64`, `aggregate32`); between the two layers every entry is replaced by its maximum with 0
  (`positivePart`). An index array is made a one-column matrix before it is used (`asColumn`), and before a gather
  its negative entries are moved up by the node count (`wrapNegative`) — jnp's indexing convention.

  The two programs differ ONLY in how the matrix `h` fed to a layer was computed (the kernel's blocked product, the
  reference's single product); everything in this file is common to both, so nothing here is ever opened: the
  proof passes equal matrices to equal functions.

  Every operation is spelled as the printed programs spell it, at an arbitrary float instance.
-/
import proofs.«128642_j34454227649229_1_alg».proof.Proof.Gen.KernelIdeal

noncomputable section

namespace Cert.KernelIdeal.Graph

open Cert.KernelIdeal Cert.KernelIdeal.Gen Idealize.ShloMosaic

variable {F : FTy → Type} [FloatOps F]

/-- A row of the edge list (`row = ![0, 0]`: sources; `![1, 0]`: destinations) followed by every node's own number. -/
def endpoints (row : Fin 2 → Nat) (hrow : S2x1600000.Slices row S1x1600000)
    (edges : (⟨S2x1600000, .i32⟩ : BufTy).Contents (Elt F)) : (⟨S1700000, .i32⟩ : BufTy).Contents (Elt F) :=
  concatenate S1700000 0 [⟨S1600000, (shapeCast _ (extractStridedSlice S1x1600000 row edges hrow) shapeCasts_S1x1600000_S1600000)⟩,
    ⟨S100000, (iotaInDim S100000 32 0)⟩] concatenates_S1600000_S100000_S1700000_d0

/-- The edges' sources, self-loops appended. -/
def sources (edges : (⟨S2x1600000, .i32⟩ : BufTy).Contents (Elt F)) : (⟨S1700000, .i32⟩ : BufTy).Contents (Elt F) :=
  endpoints (F := F) ![0, 0] slices_S2x1600000_S1x1600000_0_0 edges

/-- The edges' destinations, self-loops appended. -/
def destinations (edges : (⟨S2x1600000, .i32⟩ : BufTy).Contents (Elt F)) : (⟨S1700000, .i32⟩ : BufTy).Contents (Elt F) :=
  endpoints (F := F) ![1, 0] slices_S2x1600000_S1x1600000_1_0 edges

/-- An index vector as a one-column matrix. -/
def asColumn (ix : (⟨S1700000, .i32⟩ : BufTy).Contents (Elt F)) : (⟨S1700000x1, .i32⟩ : BufTy).Contents (Elt F) :=
  broadcastInDim S1700000x1 ![0] bcast_S1700000_S1700000x1_0 ix

/-- An index vector with its negative entries moved up by the node count, as a one-column matrix. -/
def wrapNegative (ix : (⟨S1700000, .i32⟩ : BufTy).Contents (Elt F)) : (⟨S1700000x1, .i32⟩ : BufTy).Contents (Elt F) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- Each node's number of incoming edges (self-loop included): a one per edge added at its destination. -/
def degree (dst : (⟨S1700000, .i32⟩ : BufTy).Contents (Elt F)) : (⟨S100000, .f32⟩ : BufTy).Contents (Elt F) :=
  Host.scatterAdd (F := F) scatter_S100000_S1700000x1_S1700000_n_0_0_1
    (broadcastInDim S100000 ![] bcast_S_S100000 (constant (F := F) S_ .f32 0x00000000#32))
    (broadcastInDim S1700000x1 ![0] bcast_S1700000_S1700000x1_0 dst)
    (broadcastInDim S1700000 ![] bcast_S_S1700000 (constant (F := F) S_ .f32 0x3F800000#32))

/-- Which nodes have an incoming edge at all: the degree compared with 0. -/
def hasEdges (dst : (⟨S1700000, .i32⟩ : BufTy).Contents (Elt F)) : (⟨S100000, .i1⟩ : BufTy).Contents (Elt F) :=
  cmpf (F := F) .ogt (degree (F := F) dst) (broadcastInDim S100000 ![] bcast_S_S100000 (constant (F := F) S_ .f32 0x00000000#32))

/-- `max(degree, 1e-12)^(-1/2)`: the root taken on every node (the maximum only guards nodes of degree 0, whose value
    is never used). -/
def rootDegree (dst : (⟨S1700000, .i32⟩ : BufTy).Contents (Elt F)) : (⟨S100000, .f32⟩ : BufTy).Contents (Elt F) :=
  Host.rsqrt (F := F) (maximumf (degree (F := F) dst) (broadcastInDim S100000 ![] bcast_S_S100000 (constant (F := F) S_ .f32 0x2B8CBCCC#32)))

/-- The choice between the two, node by node: the root where the flag is set, the given scalar elsewhere. -/
def chooseRoot (flag : (⟨S100000, .i1⟩ : BufTy).Contents (Elt F)) (root : (⟨S100000, .f32⟩ : BufTy).Contents (Elt F))
    (other : (⟨S_, .f32⟩ : BufTy).Contents (Elt F)) : (⟨S100000, .f32⟩ : BufTy).Contents (Elt F) :=
  select flag root (broadcastInDim S100000 ![] bcast_S_S100000 (id other))

/-- `degree^(-1/2)` where the degree is positive, 0 elsewhere. -/
def invSqrtDegree (dst : (⟨S1700000, .i32⟩ : BufTy).Contents (Elt F)) : (⟨S100000, .f32⟩ : BufTy).Contents (Elt F) :=
  chooseRoot (F := F) (hasEdges (F := F) dst) (rootDegree (F := F) dst) (constant (F := F) S_ .f32 0x00000000#32)

/-- Per edge: a per-node number at its source times the same at its destination. -/
def weighEdges (perNode : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 perNode (wrapNegative (F := F) src))
    (Host.gather gather_S100000_S1700000x1_S1700000_n_0_n_n_0_1_1 perNode (wrapNegative (F := F) dst))

/-- Per edge: `invSqrtDegree` at its source times `invSqrtDegree` at its destination. -/
def edgeWeight (src dst : (⟨S1700000, .i32⟩ : BufTy).Contents (Elt F)) : (⟨S1700000, .f32⟩ : BufTy).Contents (Elt F) :=
  weighEdges (F := F) (invSqrtDegree (F := F) dst) src dst

/-- The first layer's aggregation: rows of `h` gathered at the sources, scaled by the edge weights, added at the
    destinations, plus the bias on every row. -/
def aggregate64 (h : (⟨S100000x64, .f32⟩ : BufTy).Contents (Elt F)) (src dst : (⟨S1700000, .i32⟩ : BufTy).Contents (Elt F))
    (weight : (⟨S1700000, .f32⟩ : BufTy).Contents (Elt F)) (bias : (⟨S64, .f32⟩ : BufTy).Contents (Elt F)) :
    (⟨S100000x64, .f32⟩ : BufTy).Contents (Elt F) :=
  addf (Host.scatterAdd (F := F) scatter_S100000x64_S1700000x1_S1700000x64_1_0_0_1
      (broadcastInDim S100000x64 ![] bcast_S_S100000x64 (constant (F := F) S_ .f32 0x00000000#32))
      (broadcastInDim S1700000x1 ![0] bcast_S1700000_S1700000x1_0 dst)
      (mulf (Host.gather gather_S100000x64_S1700000x1_S1700000x64_1_0_n_n_0_1_164 h (wrapNegative (F := F) src))
        (broadcastInDim S1700000x64 ![0, 1] bcast_S1700000x1_S1700000x64_0_1 (broadcastInDim S1700000x1 ![0] bcast_S1700000_S1700000x1_0 weight))))
    (broadcastInDim S100000x64 ![0, 1] bcast_S1x64_S100000x64_0_1 (broadcastInDim S1x64 ![1] bcast_S64_S1x64_1 bias))

/-- Every entry replaced by its maximum with 0. -/
def positivePart (h : (⟨S100000x64, .f32⟩ : BufTy).Contents (Elt F)) : (⟨S100000x64, .f32⟩ : BufTy).Contents (Elt F) :=
  maximumf h (broadcastInDim S100000x64 ![] bcast_S_S100000x64 (constant (F := F) S_ .f32 0x00000000#32))

/-- The second layer's aggregation. -/
def aggregate32 (h : (⟨S100000x32, .f32⟩ : BufTy).Contents (Elt F)) (src dst : (⟨S1700000, .i32⟩ : BufTy).Contents (Elt F))
    (weight : (⟨S1700000, .f32⟩ : BufTy).Contents (Elt F)) (bias : (⟨S32, .f32⟩ : BufTy).Contents (Elt F)) :
    (⟨S100000x32, .f32⟩ : BufTy).Contents (Elt F) :=
  addf (Host.scatterAdd (F := F) scatter_S100000x32_S1700000x1_S1700000x32_1_0_0_1
      (broadcastInDim S100000x32 ![] bcast_S_S100000x32 (constant (F := F) S_ .f32 0x00000000#32))
      (broadcastInDim S1700000x1 ![0] bcast_S1700000_S1700000x1_0 dst)
      (mulf (Host.gather gather_S100000x32_S1700000x1_S1700000x32_1_0_n_n_0_1_132 h (wrapNegative (F := F) src))
        (broadcastInDim S1700000x32 ![0, 1] bcast_S1700000x1_S1700000x32_0_1 (broadcastInDim S1700000x1 ![0] bcast_S1700000_S1700000x1_0 weight))))
    (broadcastInDim S100000x32 ![0, 1] bcast_S1x32_S100000x32_0_1 (broadcastInDim S1x32 ![1] bcast_S32_S1x32_1 bias))

end Cert.KernelIdeal.Graph

end
-- ==== Proof.TwoLayers.lean ====
/-
  The network as ONE function of its six arguments, on the extended reals:
      twoLayers x edges W₁ b₁ W₂ b₂ = A (relu (A (x W₁) + b₁) W₂) + b₂,
  with `A` the weighted gather-and-add over the edges (self-loops appended) and the two products the plain
  entry-by-entry sums over the inner axis. Both programs are shown to end with this value in their result buffer.
-/
import proofs.«128642_j34454227649229_1_alg».proof.Proof.WholeProduct
import proofs.«128642_j34454227649229_1_alg».proof.Proof.Layers

noncomputable section

namespace Cert.KernelIdeal.ResultValue

open Cert.KernelIdeal Cert.KernelIdeal.Gen Cert.KernelIdeal.Graph Cert.KernelIdeal.Product Idealize.ShloMosaic

/-- The two layers as one function of the six arguments. -/
def twoLayers (x : (⟨S100000x128, .f32⟩ : BufTy).Contents (Elt Ideal)) (edges : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x32, .f32⟩ : BufTy).Contents (Elt Ideal)) (b2 : (⟨S32, .f32⟩ : BufTy).Contents (Elt Ideal)) :
    (⟨S100000x32, .f32⟩ : BufTy).Contents (Elt Ideal) :=
  aggregate32 (F := Ideal)
    (rowsTimes2
      (positivePart (F := Ideal)
        (aggregate64 (F := Ideal) (rowsTimes1 x w1) (sources (F := Ideal) edges) (destinations (F := Ideal) edges)
          (edgeWeight (F := Ideal) (sources (F := Ideal) edges) (destinations (F := Ideal) edges)) b1))
      w2)
    (sources (F := Ideal) edges) (destinations (F := Ideal) edges)
    (edgeWeight (F := Ideal) (sources (F := Ideal) edges) (destinations (F := Ideal) edges)) b2

end Cert.KernelIdeal.ResultValue

end
-- ==== Proof.ResultValue.lean ====
/-
  What the idealized kernel's result buffer holds at the end, as a function of the arguments.

  Read backwards from the last boundary:
  * the last stretch of host operations is the second layer's aggregation of the second region's output;
  * the second region's output is the product of the matrix it finds in its left operand's buffer with the second
    weight matrix (every block the restriction of one product, the blocks tiling the rows);
  * that left operand was written by the stretch before the region: the positive part of the first layer's
    aggregation of the first region's output;
  * the first region's output is the product of the node features with the first weight matrix;
  * the index vectors and the edge weights both layers use were written once, before the first region, from the
    edge list alone, and no later segment writes their buffers: a region changes only its own arrays, a stretch
    only its operations' results.
  Composing these, the result is
    aggregate32 (rowsTimes2 (positivePart (aggregate64 (rowsTimes1 x W₁) s d w b₁)) W₂) s d w b₂
  with `s`, `d` the edges' end-points and `w` the edge weights.
-/
import proofs.«128642_j34454227649229_1_alg».proof.Proof.Gen.KernelIdeal.Frame
import proofs.«128642_j34454227649229_1_alg».proof.Proof.WholeProduct
import proofs.«128642_j34454227649229_1_alg».proof.Proof.Layers
import proofs.«128642_j34454227649229_1_alg».proof.Proof.TwoLayers
import Idealize.ShloMosaic.Lib.StableHlo.Run

set_option maxRecDepth 16384

noncomputable section

namespace Cert.KernelIdeal.ResultValue

open Cert.KernelIdeal Cert.KernelIdeal.Gen Cert.KernelIdeal.Graph Cert.KernelIdeal.Product
open Idealize.ShloMosaic Idealize.ShloMosaic.TcCoe Idealize.SL.Sem Idealize.ShloMosaic.StableHlo

/-! ## Each stretch of host operations, from ANY contents `V` of the buffers

A stretch is read once, as a function of what it finds; the boundaries below only instantiate `V`. -/

section Stretches

variable (V : Valuation τ sig (Elt Ideal))

/-- The opening stretch writes the sources, -/
theorem opening_sources :
    StableHlo.after hostOps0 V (Proc.devRef .tc main_v3) = sources (F := Ideal) (V (Proc.devRef .tc main_arg1)) := by
  dsimp only [hostOps0]
  after_results_simp
  rfl
/-- the destinations, -/
theorem opening_destinations :
    StableHlo.after hostOps0 V (Proc.devRef .tc main_v6) = destinations (F := Ideal) (V (Proc.devRef .tc main_arg1)) := by
  dsimp only [hostOps0]
  after_results_simp
  rfl
/-- which nodes have an incoming edge, -/
theorem opening_flag :
    StableHlo.after hostOps0 V (Proc.devRef .tc main_v12)
      = hasEdges (F := Ideal) (destinations (F := Ideal) (V (Proc.devRef .tc main_arg1))) := by
  dsimp only [hostOps0]
  after_results_simp
  rfl
/-- the root of every node's degree, -/
theorem opening_root :
    StableHlo.after hostOps0 V (Proc.devRef .tc main_v15)
      = rootDegree (F := Ideal) (destinations (F := Ideal) (V (Proc.devRef .tc main_arg1))) := by
  dsimp only [hostOps0]
  after_results_simp
  rfl
/-- and the scalar 0 the choice falls back on. -/
theorem opening_zero :
    StableHlo.after hostOps0 V (Proc.devRef .tc main_cst_3) = constant (F := Ideal) S_ .f32 0x00000000#32 := by
  dsimp only [hostOps0]
  after_results_simp

/-- The choice between root and 0, node by node (three operations of an outlined function). -/
theorem choice_stretch :
    StableHlo.after hostOps0_1 V (Proc.devRef .tc main_v16)
      = chooseRoot (F := Ideal) (V (Proc.devRef .tc main_v12)) (V (Proc.devRef .tc main_v15)) (V (Proc.devRef .tc main_cst_3)) := by
  dsimp only [hostOps0_1]
  after_results_simp
  rfl

/-- The stretch before the first region weighs the edges by whatever per-node numbers it finds. -/
theorem weights_stretch :
    StableHlo.after hostOps0_2 V (Proc.devRef .tc main_v31)
      = weighEdges (F := Ideal) (V (Proc.devRef .tc main_v16)) (V (Proc.devRef .tc main_v3)) (V (Proc.devRef .tc main_v6)) := by
  dsimp only [hostOps0_2]
  after_results_simp
  rfl

/-- The stretch after the first region aggregates whatever matrix it finds in that region's output. -/
theorem aggregate_stretch :
    StableHlo.after hostOps1 V (Proc.devRef .tc main_v48)
      = aggregate64 (F := Ideal) (V (Proc.devRef .tc main_v32)) (V (Proc.devRef .tc main_v3)) (V (Proc.devRef .tc main_v6))
          (V (Proc.devRef .tc main_v31)) (V (Proc.devRef .tc main_arg3)) := by
  dsimp only [hostOps1]
  after_results_simp
  rfl

/-- The positive part (three operations of an outlined function). -/
theorem relu_stretch :
    StableHlo.after hostOps1_1 V (Proc.devRef .tc main_v49) = positivePart (F := Ideal) (V (Proc.devRef .tc main_v48)) := by
  dsimp only [hostOps1_1]
  after_results_simp
  rfl

/-- The last stretch aggregates whatever matrix it finds in the second region's output. -/
theorem last_stretch :
    StableHlo.after hostOps2 V (Proc.devRef .tc main_v66)
      = aggregate32 (F := Ideal) (V (Proc.devRef .tc main_v50)) (V (Proc.devRef .tc main_v3)) (V (Proc.devRef .tc main_v6))
          (V (Proc.devRef .tc main_v31)) (V (Proc.devRef .tc main_arg5)) := by
  dsimp only [hostOps2]
  after_results_simp
  rfl

end Stretches

variable (m : (ℓ : Loc nD τ sig) → Buf (Elt Ideal) ℓ) (ρ : Dev nD → PrngReg) (c : Dev nD)

/-! ## A buffer that a stretch does not write keeps its contents -/

theorem keep0_1 (b : Ref sig .tc) (hb : b ≠ main_call0_v0 ∧ b ≠ main_call0_v1 ∧ b ≠ main_v16) (V : Valuation τ sig (Elt Ideal)) :
    StableHlo.after hostOps0_1 V (Proc.devRef .tc b) = V (Proc.devRef .tc b) := by
  obtain ⟨h0, h1, h2⟩ := hb
  refine StableHlo.after_of_forall_not_mem (b := Proc.devRef .tc b) _ _ (List.forall_iff_forall_mem.mp ?_)
  simp only [hostOps0_1, List.Forall, StableHlo.TRef.unary, StableHlo.TRef.ternary, StableHlo.unary_writes, StableHlo.ternary_writes, Finset.mem_singleton]
  exact ⟨StableHlo.devRef_ne_of_ne h0, StableHlo.devRef_ne_of_ne h1, StableHlo.devRef_ne_of_ne h2⟩

/-! ## At the first region's entry -/

theorem entry1_sources :
    W3 m ρ c (Proc.devRef .tc main_v3) = sources (F := Ideal) (m ((c.tc : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results_simp
  rfl

theorem entry1_destinations :
    W3 m ρ c (Proc.devRef .tc main_v6) = destinations (F := Ideal) (m ((c.tc : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results_simp
  rfl

/-- The per-node numbers the edges are weighed by: `degree^(-1/2)`, 0 where the degree is 0. -/
theorem before_weights_perNode :
    W2 m ρ c (Proc.devRef .tc main_v16) = invSqrtDegree (F := Ideal) (destinations (F := Ideal) (m ((c.tc : Thread nD τ).loc main_arg1))) := by
  refine (choice_stretch (W1 m ρ c)).trans ?_
  show chooseRoot (F := Ideal) (StableHlo.after hostOps0 (W0 m ρ c) (Proc.devRef .tc main_v12))
      (StableHlo.after hostOps0 (W0 m ρ c) (Proc.devRef .tc main_v15)) (StableHlo.after hostOps0 (W0 m ρ c) (Proc.devRef .tc main_cst_3)) = _
  rw [opening_flag, opening_root, opening_zero]
  rfl

theorem before_weights_sources :
    W2 m ρ c (Proc.devRef .tc main_v3) = sources (F := Ideal) (m ((c.tc : Thread nD τ).loc main_arg1)) :=
  (keep0_1 main_v3 (by decide) (W1 m ρ c)).trans (opening_sources (W0 m ρ c))

theorem before_weights_destinations :
    W2 m ρ c (Proc.devRef .tc main_v6) = destinations (F := Ideal) (m ((c.tc : Thread nD τ).loc main_arg1)) :=
  (keep0_1 main_v6 (by decide) (W1 m ρ c)).trans (opening_destinations (W0 m ρ c))

theorem entry1_weights :
    W3 m ρ c (Proc.devRef .tc main_v31)
      = edgeWeight (F := Ideal) (sources (F := Ideal) (m ((c.tc : Thread nD τ).loc main_arg1)))
          (destinations (F := Ideal) (m ((c.tc : Thread nD τ).loc main_arg1))) := by
  refine (weights_stretch (W2 m ρ c)).trans ?_
  rw [before_weights_perNode, before_weights_sources, before_weights_destinations]
  rfl

theorem entry1_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp
theorem entry1_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results_simp
theorem entry1_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp
theorem entry1_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp
theorem entry1_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]
  after_results_simp

/-! ## At the first region's exit: its output is the first product; nothing else it does not own has changed -/

theorem exit1_product :
    W4 m ρ c (Proc.devRef .tc main_v32)
      = rowsTimes1 (m ((c.tc : Thread nD τ).loc main_arg0)) (m ((c.tc : Thread nD τ).loc main_arg2)) :=
  (W4_arr m ρ c 2).trans <| (whole1 (V3 m ρ) c).trans <| by
    show rowsTimes1 (W3 m ρ c (Proc.devRef .tc main_arg0)) (W3 m ρ c (Proc.devRef .tc main_arg2)) = _
    rw [entry1_arg0, entry1_arg2]

theorem exit1_sources : W4 m ρ c (Proc.devRef .tc main_v3) = sources (F := Ideal) (m ((c.tc : Thread nD τ).loc main_arg1)) :=
  (W4_of_ne m ρ c main_v3 (by decide)).trans (entry1_sources m ρ c)
theorem exit1_destinations : W4 m ρ c (Proc.devRef .tc main_v6) = destinations (F := Ideal) (m ((c.tc : Thread nD τ).loc main_arg1)) :=
  (W4_of_ne m ρ c main_v6 (by decide)).trans (entry1_destinations m ρ c)
theorem exit1_weights :
    W4 m ρ c (Proc.devRef .tc main_v31)
      = edgeWeight (F := Ideal) (sources (F := Ideal) (m ((c.tc : Thread nD τ).loc main_arg1)))
          (destinations (F := Ideal) (m ((c.tc : Thread nD τ).loc main_arg1))) :=
  (W4_of_ne m ρ c main_v31 (by decide)).trans (entry1_weights m ρ c)
theorem exit1_arg3 : W4 m ρ c (Proc.devRef .tc main_arg3) = m ((c.tc : Thread nD τ).loc main_arg3) :=
  (W4_of_ne m ρ c main_arg3 (by decide)).trans (entry1_arg3 m ρ c)
theorem exit1_arg4 : W4 m ρ c (Proc.devRef .tc main_arg4) = m ((c.tc : Thread nD τ).loc main_arg4) :=
  (W4_of_ne m ρ c main_arg4 (by decide)).trans (entry1_arg4 m ρ c)
theorem exit1_arg5 : W4 m ρ c (Proc.devRef .tc main_arg5) = m ((c.tc : Thread nD τ).loc main_arg5) :=
  (W4_of_ne m ρ c main_arg5 (by decide)).trans (entry1_arg5 m ρ c)

/-! ## At the second region's entry: the stretch between the regions -/

/-- The second region's left operand: the positive part of the first layer's aggregation of whatever the first
    region left in its output. -/
theorem entry2_hidden :
    W6 m ρ c (Proc.devRef .tc main_v49)
      = positivePart (F := Ideal) (aggregate64 (F := Ideal) (W4 m ρ c (Proc.devRef .tc main_v32)) (W4 m ρ c (Proc.devRef .tc main_v3))
          (W4 m ρ c (Proc.devRef .tc main_v6)) (W4 m ρ c (Proc.devRef .tc main_v31)) (W4 m ρ c (Proc.devRef .tc main_arg3))) :=
  (relu_stretch (W5 m ρ c)).trans (congrArg (positivePart (F := Ideal)) (aggregate_stretch (W4 m ρ c)))

theorem entry2_sources : W6 m ρ c (Proc.devRef .tc main_v3) = W4 m ρ c (Proc.devRef .tc main_v3) := by
  show StableHlo.after hostOps1_1 (StableHlo.after hostOps1 (W4 m ρ c)) (Proc.devRef .tc main_v3) = _
  dsimp only [hostOps1, hostOps1_1]
  after_results_simp
theorem entry2_destinations : W6 m ρ c (Proc.devRef .tc main_v6) = W4 m ρ c (Proc.devRef .tc main_v6) := by
  show StableHlo.after hostOps1_1 (StableHlo.after hostOps1 (W4 m ρ c)) (Proc.devRef .tc main_v6) = _
  dsimp only [hostOps1, hostOps1_1]
  after_results_simp
theorem entry2_weights : W6 m ρ c (Proc.devRef .tc main_v31) = W4 m ρ c (Proc.devRef .tc main_v31) := by
  show StableHlo.after hostOps1_1 (StableHlo.after hostOps1 (W4 m ρ c)) (Proc.devRef .tc main_v31) = _
  dsimp only [hostOps1, hostOps1_1]
  after_results_simp
theorem entry2_arg4 : W6 m ρ c (Proc.devRef .tc main_arg4) = W4 m ρ c (Proc.devRef .tc main_arg4) := by
  show StableHlo.after hostOps1_1 (StableHlo.after hostOps1 (W4 m ρ c)) (Proc.devRef .tc main_arg4) = _
  dsimp only [hostOps1, hostOps1_1]
  after_results_simp
theorem entry2_arg5 : W6 m ρ c (Proc.devRef .tc main_arg5) = W4 m ρ c (Proc.devRef .tc main_arg5) := by
  show StableHlo.after hostOps1_1 (StableHlo.after hostOps1 (W4 m ρ c)) (Proc.devRef .tc main_arg5) = _
  dsimp only [hostOps1, hostOps1_1]
  after_results_simp

/-! ## At the second region's exit -/

theorem exit2_product :
    W7 m ρ c (Proc.devRef .tc main_v50)
      = rowsTimes2 (W6 m ρ c (Proc.devRef .tc main_v49)) (W6 m ρ c (Proc.devRef .tc main_arg4)) :=
  (W7_arr m ρ c 2).trans (whole2 (V6 m ρ) c)

/-! ## The whole -/

/-- THE RESULT: at the last boundary the result buffer holds the two layers of the arguments' launch contents. -/
theorem result :
    W8 m ρ c (Proc.devRef .tc main_v66)
      = twoLayers (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (last_stretch (W7 m ρ c)).trans ?_
  rw [exit2_product,
    W7_of_ne m ρ c main_v3 (by decide), W7_of_ne m ρ c main_v6 (by decide), W7_of_ne m ρ c main_v31 (by decide),
    W7_of_ne m ρ c main_arg5 (by decide),
    entry2_hidden, entry2_sources, entry2_destinations, entry2_weights, entry2_arg4, entry2_arg5,
    exit1_product, exit1_sources, exit1_destinations, exit1_weights, exit1_arg3, exit1_arg4, exit1_arg5]
  unfold twoLayers
  rfl

end Cert.KernelIdeal.ResultValue

end
-- ==== Proof.ReferenceValue.lean ====
/-
  The reference computes the same two layers.

  The reference's @main is the same sequence of host operations as the kernel's, except that each matrix product is
  one host `dot_general` over the whole arrays, and that it spells the edge weights out a second time for the second
  layer (the same operations on the same edge list, hence the same array). On the extended reals a `dot_general`
  contracting the left operand's columns with the right operand's rows is, entry by entry, the sum over the inner
  axis of `left (r, k) * right (k, q)` — exactly `rowsTimes`, the function the kernel's blocks are restrictions of.
  No entry needs to be finite: a finite sum of extended reals does not depend on how it is grouped into blocks
  because here it is not regrouped at all — the kernel tiles the ROWS, and each entry's sum over the inner axis is
  taken whole on both sides.

  So the reference's result, as the run states it, is `twoLayers` of its arguments: rewrite its two products, and the
  rest is the same operations with equal dimension records.
-/
import proofs.«128642_j34454227649229_1_alg».proof.Proof.ReferenceRun
import proofs.«128642_j34454227649229_1_alg».proof.Proof.TwoLayers
import Idealize.ShloMosaic.Lib.ValueIdx
import Idealize.ShloMosaic.PureOps.Ideal.Laws

set_option maxRecDepth 16384

noncomputable section

namespace Cert.ReferenceIdeal.SameLayers

open Cert.ReferenceIdeal Cert.ReferenceIdeal.Gen Idealize.ShloMosaic Idealize.ShloMosaic.TcCoe Idealize.ShloMosaic.ValueIdx Idealize.SL.Sem
open Cert.KernelIdeal.Product (rowsTimes1 rowsTimes2)
open Cert.KernelIdeal.ResultValue (twoLayers)

/-! ## The host products, entry by entry -/

theorem left1 (i : S100000x64.Idx) (k : Fin 128) :
    dot_S100000x128_S128x64_S100000x64_1_0_0_1_n_n.lhsIdx i ((contrEquiv1 dot_S100000x128_S128x64_S100000x64_1_0_0_1_n_n 128 rfl rfl).symm k)
      = (ix2 (i 0) k : S100000x128.Idx) := by
  have hk := contrEquiv1_symm_val dot_S100000x128_S128x64_S100000x64_1_0_0_1_n_n 128 rfl rfl k
  funext a; apply Fin.ext
  match a with
  | ⟨0, _⟩ =>
    show (dot_S100000x128_S128x64_S100000x64_1_0_0_1_n_n.lhsIdx i _ 0).val = (i 0).val
    unfold DotDims.lhsIdx
    rw [dif_neg (show ¬(0 : Fin S100000x128.rank) ∈ dot_S100000x128_S128x64_S100000x64_1_0_0_1_n_n.lhsBatch by decide),
      dif_pos (show (0 : Fin S100000x128.rank) ∈ dot_S100000x128_S128x64_S100000x64_1_0_0_1_n_n.lhsNonContracting by decide)]
    rfl
  | ⟨1, _⟩ =>
    exact (dot_S100000x128_S128x64_S100000x64_1_0_0_1_n_n.lhsIdx_val_of_single rfl i _).trans hk

theorem right1 (i : S100000x64.Idx) (k : Fin 128) :
    dot_S100000x128_S128x64_S100000x64_1_0_0_1_n_n.rhsIdx i ((contrEquiv1 dot_S100000x128_S128x64_S100000x64_1_0_0_1_n_n 128 rfl rfl).symm k)
      = (ix2 k (i 1) : S128x64.Idx) := by
  have hk := contrEquiv1_symm_val dot_S100000x128_S128x64_S100000x64_1_0_0_1_n_n 128 rfl rfl k
  funext a; apply Fin.ext
  match a with
  | ⟨0, _⟩ =>
    exact (dot_S100000x128_S128x64_S100000x64_1_0_0_1_n_n.rhsIdx_val_of_single rfl i _).trans hk
  | ⟨1, _⟩ =>
    show (dot_S100000x128_S128x64_S100000x64_1_0_0_1_n_n.rhsIdx i _ 1).val = (i 1).val
    unfold DotDims.rhsIdx
    rw [dif_neg (show ¬(1 : Fin S128x64.rank) ∈ dot_S100000x128_S128x64_S100000x64_1_0_0_1_n_n.rhsBatch by decide),
      dif_pos (show (1 : Fin S128x64.rank) ∈ dot_S100000x128_S128x64_S100000x64_1_0_0_1_n_n.rhsNonContracting by decide)]
    rfl

/-- The first host product is `rowsTimes1`. -/
theorem product1 (x : FVec Ideal S100000x128 .f32) (w : FVec Ideal S128x64 .f32) :
    Host.dotGeneral dot_S100000x128_S128x64_S100000x64_1_0_0_1_n_n none x w = rowsTimes1 x w := by
  funext i
  simp only [Host.dotGeneral]
  refine (Ideal.dotGeneral_apply dot_S100000x128_S128x64_S100000x64_1_0_0_1_n_n none _ x w i).trans ?_
  rw [← Equiv.sum_comp (contrEquiv1 dot_S100000x128_S128x64_S100000x64_1_0_0_1_n_n 128 rfl rfl).symm]
  unfold rowsTimes1
  refine Finset.sum_congr rfl fun k _ => ?_
  rw [left1 i k, right1 i k]

theorem left2 (i : S100000x32.Idx) (k : Fin 64) :
    dot_S100000x64_S64x32_S100000x32_1_0_0_1_n_n.lhsIdx i ((contrEquiv1 dot_S100000x64_S64x32_S100000x32_1_0_0_1_n_n 64 rfl rfl).symm k)
      = (ix2 (i 0) k : S100000x64.Idx) := by
  have hk := contrEquiv1_symm_val dot_S100000x64_S64x32_S100000x32_1_0_0_1_n_n 64 rfl rfl k
  funext a; apply Fin.ext
  match a with
  | ⟨0, _⟩ =>
    show (dot_S100000x64_S64x32_S100000x32_1_0_0_1_n_n.lhsIdx i _ 0).val = (i 0).val
    unfold DotDims.lhsIdx
    rw [dif_neg (show ¬(0 : Fin S100000x64.rank) ∈ dot_S100000x64_S64x32_S100000x32_1_0_0_1_n_n.lhsBatch by decide),
      dif_pos (show (0 : Fin S100000x64.rank) ∈ dot_S100000x64_S64x32_S100000x32_1_0_0_1_n_n.lhsNonContracting by decide)]
    rfl
  | ⟨1, _⟩ =>
    exact (dot_S100000x64_S64x32_S100000x32_1_0_0_1_n_n.lhsIdx_val_of_single rfl i _).trans hk

theorem right2 (i : S100000x32.Idx) (k : Fin 64) :
    dot_S100000x64_S64x32_S100000x32_1_0_0_1_n_n.rhsIdx i ((contrEquiv1 dot_S100000x64_S64x32_S100000x32_1_0_0_1_n_n 64 rfl rfl).symm k)
      = (ix2 k (i 1) : S64x32.Idx) := by
  have hk := contrEquiv1_symm_val dot_S100000x64_S64x32_S100000x32_1_0_0_1_n_n 64 rfl rfl k
  funext a; apply Fin.ext
  match a with
  | ⟨0, _⟩ =>
    exact (dot_S100000x64_S64x32_S100000x32_1_0_0_1_n_n.rhsIdx_val_of_single rfl i _).trans hk
  | ⟨1, _⟩ =>
    show (dot_S100000x64_S64x32_S100000x32_1_0_0_1_n_n.rhsIdx i _ 1).val = (i 1).val
    unfold DotDims.rhsIdx
    rw [dif_neg (show ¬(1 : Fin S64x32.rank) ∈ dot_S100000x64_S64x32_S100000x32_1_0_0_1_n_n.rhsBatch by decide),
      dif_pos (show (1 : Fin S64x32.rank) ∈ dot_S100000x64_S64x32_S100000x32_1_0_0_1_n_n.rhsNonContracting by decide)]
    rfl

/-- The second host product is `rowsTimes2`. -/
theorem product2 (x : FVec Ideal S100000x64 .f32) (w : FVec Ideal S64x32 .f32) :
    Host.dotGeneral dot_S100000x64_S64x32_S100000x32_1_0_0_1_n_n none x w = rowsTimes2 x w := by
  funext i
  simp only [Host.dotGeneral]
  refine (Ideal.dotGeneral_apply dot_S100000x64_S64x32_S100000x32_1_0_0_1_n_n none _ x w i).trans ?_
  rw [← Equiv.sum_comp (contrEquiv1 dot_S100000x64_S64x32_S100000x32_1_0_0_1_n_n 64 rfl rfl).symm]
  unfold rowsTimes2
  refine Finset.sum_congr rfl fun k _ => ?_
  rw [left2 i k, right2 i k]

/-! ## The reference's result -/

/-- The reference run's result term is the two layers of the reference's arguments. -/
theorem result (m : (ℓ : Loc nD τ sig) → Buf (Elt Ideal) ℓ) (c : Dev nD) :
    Cert.ReferenceIdeal.RunP.res_main_v81 (F := Ideal) m c
      = twoLayers (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v81 twoLayers
  rw [← product1, ← product2]
  unfold Cert.KernelIdeal.Graph.aggregate32 Cert.KernelIdeal.Graph.positivePart Cert.KernelIdeal.Graph.aggregate64
    Cert.KernelIdeal.Graph.edgeWeight Cert.KernelIdeal.Graph.weighEdges Cert.KernelIdeal.Graph.invSqrtDegree
    Cert.KernelIdeal.Graph.chooseRoot Cert.KernelIdeal.Graph.hasEdges Cert.KernelIdeal.Graph.rootDegree
    Cert.KernelIdeal.Graph.degree Cert.KernelIdeal.Graph.wrapNegative Cert.KernelIdeal.Graph.sources
    Cert.KernelIdeal.Graph.destinations Cert.KernelIdeal.Graph.endpoints
  rfl

end Cert.ReferenceIdeal.SameLayers

end
-- ==== Proof.lean ====
/-
  A two-layer graph convolution whose dense products run as row-tiled matrix-unit kernels, against the same network
  with both products on the host.

  Both programs take node features `x` (100000 × 128), an edge list (2 × 1600000 node numbers), weights `W₁` (128 × 64),
  `W₂` (64 × 32) and biases `b₁`, `b₂`. Both append a self-loop per node, weigh each edge by
  `deg^(-1/2)` at its source times `deg^(-1/2)` at its destination, and compute
      out = A (relu (A (x W₁) + b₁) W₂) + b₂
  where `A h` gathers row `source(e)` of `h` for every edge `e`, scales it by the edge's weight and adds it into row
  `destination(e)`. They differ in the two products only. The kernel computes `x W₁` and `h W₂` in 25 blocks of 4000
  rows each: a block of the left operand and the whole right operand are rounded to a shorter float format and
  multiplied on the matrix unit into a zero accumulator. The reference computes each as one host product.

  On the extended reals the change of float format is the identity and both products are, entry by entry, the sum
  over the inner axis of `left (r, k) · right (k, q)`. The kernel tiles the ROWS, never the inner axis, so each
  entry's sum is the same sum on both sides: no regrouping, no distributivity, and therefore no use of the inputs'
  finiteness — the precondition is never opened. Everything else is the same operations on equal arrays.

  The modules: `PointProduct` (what one grid point stores, at an index), `WholeProduct` (the 25 blocks are
  restrictions of one product and tile the rows, so each region's output array is that product), `ResultRun` (the
  kernel's run with its result buffer kept, at the contents of the last segment boundary), `Layers` (the shared
  operations as functions), `ResultValue` (those contents walked back, segment by segment, to the arguments),
  `ReferenceRun` (the reference's run) and `ReferenceValue` (its result is the same function).

  The idealized kernel is the kernel's own text read on the extended reals: the idealization rewrote nothing, so
  there is nothing to preserve beyond the three programs running to the end with their arguments intact.
-/
import proofs.«128642_j34454227649229_1_alg».proof.Defs
import proofs.«128642_j34454227649229_1_alg».proof.Proof.Gen.Kernel
import proofs.«128642_j34454227649229_1_alg».proof.Proof.Gen.Kernel.Skeleton
import proofs.«128642_j34454227649229_1_alg».proof.Proof.Gen.Kernel.Launch
import proofs.«128642_j34454227649229_1_alg».proof.Proof.Gen.Kernel.Points
import proofs.«128642_j34454227649229_1_alg».proof.Proof.Gen.Kernel.Frame
import proofs.«128642_j34454227649229_1_alg».proof.Proof.Gen.KernelIdeal
import proofs.«128642_j34454227649229_1_alg».proof.Proof.Gen.KernelIdeal.Skeleton
import proofs.«128642_j34454227649229_1_alg».proof.Proof.Gen.KernelIdeal.Launch
import proofs.«128642_j34454227649229_1_alg».proof.Proof.Gen.KernelIdeal.Points
import proofs.«128642_j34454227649229_1_alg».proof.Proof.Gen.KernelIdeal.Frame
import proofs.«128642_j34454227649229_1_alg».proof.Proof.Gen.ReferenceIdeal
import proofs.«128642_j34454227649229_1_alg».proof.Proof.ReferenceRun
import proofs.«128642_j34454227649229_1_alg».proof.Proof.ResultRun
import proofs.«128642_j34454227649229_1_alg».proof.Proof.ResultValue
import proofs.«128642_j34454227649229_1_alg».proof.Proof.ReferenceValue
import proofs.«128642_j34454227649229_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel, word for word, runs to the end with its arguments intact. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the six arguments both programs end with the two layers of those arguments in their
    result buffers: the kernel by walking its last boundary's contents back to the arguments, the reference by reading
    its run's term. -/
theorem algebraic : Cert.algebraic_KernelIdeal_ReferenceIdeal := by
  intro m ρ m' ρ' _ hagree
  refine ⟨fun c => Cert.KernelIdeal.ResultValue.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.ResultValue.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.SameLayers.result m' c,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
